-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S4x16x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S512x128, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![64, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x16x2048x128_S64x2048x128 : S4x16x2048x128.ShapeCasts S64x2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  iota_S512x512_d0_w32 : S512x512.Iotas .tc 32 [0]
  iota_S512x512_d1_w32 : S512x512.Iotas .tc 32 [1]
  shapeCasts_S512x128_S1x512x128 : S512x128.ShapeCasts S1x512x128
  shapeCasts_S64x2048x128_S4x16x2048x128 : S64x2048x128.ShapeCasts S4x16x2048x128
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S64x2048x128.size a
  hwx0_0 : ∀ i : grid0.Coords, EltTy.bits .f32 = 32 ∨ (Rect.block (s := S64x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S64x2048x128.size a
  hwx0_1 : ∀ i : grid0.Coords, EltTy.bits .f32 = 32 ∨ (Rect.block (s := S64x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S64x2048x128.size a
  hwx0_2 : ∀ i : grid0.Coords, EltTy.bits .f32 = 32 ∨ (Rect.block (s := S64x2048x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S64x2048x128.size a
  hwx0_3 : ∀ i : grid0.Coords, EltTy.bits .f32 = 32 ∨ (Rect.block (s := S64x2048x128) S1x512x128.size (cc0_transform_3 i) (hinb0_3 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x16x2048x128 : Shape := ⟨4, ![4, 16, 2048, 128]⟩
abbrev S_ : Shape := ⟨0, ![]⟩
abbrev S2048x2048 : Shape := ⟨2, ![2048, 2048]⟩
abbrev S4x16x2048x2048 : Shape := ⟨4, ![4, 16, 2048, 2048]⟩
abbrev S1x1x2048x2048 : Shape := ⟨4, ![1, 1, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S_, .f32⟩
  | .hbm, ⟨4, _⟩ => ⟨S2048x2048, .f32⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S4x16x2048x2048, .f32⟩
  | .hbm, ⟨15, _⟩ => ⟨S1x1x2048x2048, .f32⟩
  | .hbm, ⟨16, _⟩ => ⟨S4x16x2048x2048, .f32⟩
  | .hbm, ⟨17, _⟩ => ⟨S4x16x2048x2048, .f32⟩
  | .hbm, ⟨18, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.LibWholeStore.lean ====
/-
  A store of a whole-shape block, made last, is what the buffer reads.

  Kernel bodies that keep an accumulator in a scratch buffer store it whole, through the rectangle at offset zero of
  the buffer's own extents, possibly after earlier stores at the same point. Whatever those were and whatever the
  buffer held before, reading the buffer back gives the last payload: the last store's rectangle covers every index.
-/
import Idealize.ShloMosaic.Lib.Pipeline.FrameBody
import Idealize.ShloMosaic.Lib.Pipeline.Value

noncomputable section

namespace Cert.LibWholeStore

open Idealize.ShloMosaic

/-- Every index of a shape lies in the rectangle at offset zero (however the zeros are spelt) of the shape's own extents. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- For any view `v` of shape `S`, prior contents `f`, payload `w` and earlier stores `L` (last first): after the
    stores `L` and then a store of `w` through the whole-shape rectangle at offset zero, the view reads `w`. -/
theorem read_writes_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., mem_unit_zero h inb y⟩), View.canon_cons_unit_zero h]

end Cert.LibWholeStore

end
-- ==== Proof.BitsStep.lean ====
/-
  One grid point of the causal linear-attention kernel, as pure functions of what the point finds.

  The body has three guarded blocks. With (bh, qi, ki) the point's coordinates:
    * at ki = 0 the accumulator (the scratch block, 512 x 128) is overwritten with zeros;
    * where ki <= qi the accumulator receives  acc + mask(q k^T) v  for the point's q, k, v blocks,
      the mask keeping entry (r, c) of the 512 x 512 score tile when  512 qi + r >= 512 ki + c;
    * at ki = 3 the accumulator is copied into the output block.
  `accStep` is the accumulator after the point as a function of the three input blocks and of the accumulator
  before it, `outStep` the output block's staging contents after the point. The theorems `run_…` say, for each
  assignment of the three guards, that the body run on whole buffers holding those values terminates without
  fault, leaves the three input blocks as they were, the accumulator at `accStep` and the output block at `outStep`.
  Nothing here depends on the float instance.
-/
import proofs.«108944_j52836687676079_1_alg».proof.Proof.Gen.Kernel.Frame
import proofs.«108944_j52836687676079_1_alg».proof.Proof.Gen.Kernel.Skeleton
import Idealize.ShloMosaic.Lib.Pipeline.Value
import proofs.«108944_j52836687676079_1_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Cert.LibWholeStore

/-- The guard of the zero fill: the innermost grid coordinate is 0. -/
abbrev condA (i : grid0.Coords) : Prop := (Scalar.cmpi .ne (Scalar.extui (Scalar.cmpi .eq (BitVec.ofNat 32 (i 2).val) 0#32)) 0#32) = 1#1
/-- The guard of the accumulation: the key tile is not to the right of the query tile, ki <= qi. -/
abbrev condB (i : grid0.Coords) : Prop := (Scalar.cmpi .ne (Scalar.extui (Scalar.cmpi .sle (BitVec.ofNat 32 (i 2).val) (BitVec.ofNat 32 (i 1).val))) 0#32) = 1#1
/-- The guard of the copy-out: the innermost grid coordinate is the last, 3. -/
abbrev condC (i : grid0.Coords) : Prop := k0_cond3 i = 1#1

/-- An all-zero offset, rank 2 and rank 3. -/
theorem zero2 : (![0, 0] : Fin S512x128.rank → ℕ) = fun _ => 0 := by funext a; fin_cases a <;> rfl
theorem zero3 : (![0, 0, 0] : Fin S1x512x128.rank → ℕ) = fun _ => 0 := by funext a; fin_cases a <;> rfl

/-- The accumulator after a point: zeroed first where ki = 0, then increased by the masked tile product where ki <= qi. -/
def accStep (i : grid0.Coords) (xq xk xv : Vec F S1x512x128 .f32) (xa : Vec F S512x128 .f32) : Vec F S512x128 .f32 :=
  if condB i then k0_pay2 i xq xk xv (if condA i then k0_pay1 (F := F) else xa) else (if condA i then k0_pay1 (F := F) else xa)

/-- The output block's staging contents after a point: the accumulator where ki = 3, else what was there. -/
def outStep (i : grid0.Coords) (xq xk xv xo : Vec F S1x512x128 .f32) (xa : Vec F S512x128 .f32) : Vec F S1x512x128 .f32 :=
  if condC i then k0_pay3 (accStep i xq xk xv xa) else xo

/-- What a run of the body is: from whole buffers at the given contents to the continuation holding them at the step's. -/
def RunSpec (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (xq xk xv xo : Vec F S1x512x128 .f32) (xa : Vec F S512x128 .f32) (E : Set ℕ) (K : PUnit → sProp 𝕄) : Prop :=
    iprop(owns (c : Thread nD τ) arg3 fullShare xq ∗ owns (c : Thread nD τ) arg4 fullShare xk ∗ owns (c : Thread nD τ) arg5 fullShare xv
        ∗ owns (c : Thread nD τ) arg6 fullShare xo ∗ owns (c : Thread nD τ) arg7 fullShare xa
        ∗ (iprop(owns (c : Thread nD τ) arg3 fullShare xq ∗ owns (c : Thread nD τ) arg4 fullShare xk ∗ owns (c : Thread nD τ) arg5 fullShare xv
            ∗ owns (c : Thread nD τ) arg6 fullShare (outStep i xq xk xv xo xa) ∗ owns (c : Thread nD τ) arg7 fullShare (accStep i xq xk xv xa)) -∗ K ⟨⟩))
      ⊢ wp frame (wpE (defs₀ (F := F)) Variants.none c none) E (cc0__kernel i arg3 harg3 arg4 harg4 arg5 harg5 arg6 harg6 arg7 harg7) K

theorem run_ABC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_pos hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_ABc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_pos hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_AbC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : ¬condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_neg hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_Abc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : ¬condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_neg hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_aBC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_pos hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_aBc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_pos hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_abC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : ¬condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_neg hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      exact hf7

theorem run_abc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : ¬condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_neg hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      exact hf7

/-- The body at any point, whatever the three guards say. -/
theorem run_body (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  by_cases hA : condA i <;> by_cases hB : condB i <;> by_cases hC : condC i
  · exact run_ABC c i _ _ _ _ _ _ _ _ _ _ hA hB hC _ _ _ _ _ _ _
  · exact run_ABc c i _ _ _ _ _ _ _ _ _ _ hA hB hC _ _ _ _ _ _ _
  · exact run_AbC c i _ _ _ _ _ _ _ _ _ _ hA hB hC _ _ _ _ _ _ _
  · exact run_Abc c i _ _ _ _ _ _ _ _ _ _ hA hB hC _ _ _ _ _ _ _
  · exact run_aBC c i _ _ _ _ _ _ _ _ _ _ hA hB hC _ _ _ _ _ _ _
  · exact run_aBc c i _ _ _ _ _ _ _ _ _ _ hA hB hC _ _ _ _ _ _ _
  · exact run_abC c i _ _ _ _ _ _ _ _ _ _ hA hB hC _ _ _ _ _ _ _
  · exact run_abc c i _ _ _ _ _ _ _ _ _ _ hA hB hC _ _ _ _ _ _ _

end Cert.Kernel.Hand

end
-- ==== Proof.BitsFrame.lean ====
/-
  The frame of the causal linear-attention kernel: it runs to the end, faults nowhere, and leaves its arguments alone.

  The grid is (bh, qi, ki) with ki innermost, so the accumulator (a scratch block the pipeline does not stage) lives
  across the four consecutive points of one (bh, qi): zeroed at ki = 0, increased where ki <= qi, copied out at ki = 3.
  `accAt n` is the accumulator after point n, by recursion on n through the previous module's `accStep`; the region's
  invariant before point n + 1 holds the scratch at `accAt n`. The output window's staging block is stored only at
  ki = 3 — the points where the pipeline writes it back — and is handed back untouched elsewhere. With that the body
  obligation at a point is one run of the body (whatever its guards say), and the launch theorem for a region with host
  operations on both sides gives the run; the frame claim is read off its post.
-/
import proofs.«108944_j52836687676079_1_alg».proof.Proof.BitsStep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The guards and the schedule, decided over the 1024 grid points -/

/-- The first point zeroes the accumulator. -/
theorem condA_zero : ∀ t : Fin cfg0.N, t.val = 0 → condA (grid0.coords t) :=
  (by decide +kernel : ∀ t : Fin grid0.N, t.val = 0 → condA (grid0.coords t))
/-- The three input windows are stored into at no point, so they are never idle outputs. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is live exactly where the copy-out's guard holds, -/
theorem live3 : ∀ t : Fin cfg0.N, condC (grid0.coords t) → cfg0.idle 3 (grid0.coords t) = false := by decide +kernel
theorem idle3 : ∀ t : Fin cfg0.N, ¬condC (grid0.coords t) → cfg0.idle 3 (grid0.coords t) = true := by decide +kernel
/-- and where it does not hold the pipeline does not write the block back. -/
theorem noFlush3 : ∀ t : Fin cfg0.N, ¬condC (grid0.coords t) → (cfg0.win 3).flush t = false := by decide +kernel

/-! ## The buffers the body is called with -/

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x128 .f32 := win0_3.stage (cfg0.slots t 3)
abbrev hs3 (t : Fin cfg0.N) : (ms3 t).IsWhole := hstage0_3 ((cfg0.slots t 3).cast nbuf0_3)
/-- The accumulator: the kernel's one scratch buffer, whole. -/
abbrev scM : Memref sig .tc .vmem S512x128 .f32 := Memref.whole cc0_scratch0

/-- What the launch lends the body besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator, point by point -/

/-- The accumulator after point `n`: the step at `n` from the point's three input blocks and the accumulator after
    `n - 1` (at the first point from zeros: the step there overwrites whatever it finds). -/
def accAt (c : Dev nD) : (n : ℕ) → n < cfg0.N → Vec F S512x128 .f32
  | 0, hn => accStep (grid0.coords ⟨0, hn⟩) (iblk m c 0 ⟨0, hn⟩) (iblk m c 1 ⟨0, hn⟩) (iblk m c 2 ⟨0, hn⟩) (k0_pay1 (F := F))
  | n + 1, hn => accStep (grid0.coords ⟨n + 1, hn⟩) (iblk m c 0 ⟨n + 1, hn⟩) (iblk m c 1 ⟨n + 1, hn⟩) (iblk m c 2 ⟨n + 1, hn⟩)
      (accAt c n (Nat.lt_of_succ_lt hn))

theorem accAt_pos (c : Dev nD) (t : Fin cfg0.N) (hz : t.val ≠ 0) :
    accAt m c t.val t.isLt = accStep (grid0.coords t) (iblk m c 0 t) (iblk m c 1 t) (iblk m c 2 t)
      (accAt m c (t.val - 1) (Nat.lt_of_le_of_lt (Nat.sub_le _ _) t.isLt)) := by
  obtain ⟨n, hn⟩ := t
  cases n with
  | zero => exact absurd rfl hz
  | succ n => rfl

/-- At the first point the step does not depend on what the scratch held. -/
theorem accAt_zero (c : Dev nD) (t : Fin cfg0.N) (hz : t.val = 0) (d : Vec F S512x128 .f32) :
    accAt m c t.val t.isLt = accStep (grid0.coords t) (iblk m c 0 t) (iblk m c 1 t) (iblk m c 2 t) d := by
  have hA := condA_zero t hz
  obtain ⟨n, hn⟩ := t
  cases n with
  | succ n => exact absurd hz (Nat.succ_ne_zero n)
  | zero =>
    show accStep _ _ _ _ (k0_pay1 (F := F)) = accStep _ _ _ _ d
    unfold accStep; simp only [if_pos hA]

/-- The region's invariant before position `n`: what the launch lends before the first point; afterwards the scratch
    at the accumulator the point before left, and the generator register. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- On core `c`: the arrays as the region finds them; after the body each input's buffer still at its block and the
    output's at the accumulator cast to the block's shape (consulted only where the block is written back); the
    invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (accAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body must leave in each input's buffer: its block. -/
theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after_2]
/-- In the output's buffer, where the copy-out runs: the accumulator, cast. -/
theorem leaves_3 (c : Dev nD) (t : Fin cfg0.N) (hC : condC (grid0.coords t)) :
    (dats m 0 c).leavesExact 3 t = owns (c : Thread nD τ) (ms3 t) fullShare (k0_pay3 (accAt m c t.val t.isLt)) := by
  rw [show (dats m 0 c).leavesExact 3 t = owns (c : Thread nD τ) (ms3 t) fullShare ((dats m 0 c).after 3 t) from by
    unfold Dat.leavesExact; rw [live3 t hC], after_3]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. The inputs' buffers hold their blocks; the scratch holds what the point before left (anything,
    at the first point, where the step overwrites it); one run of the body leaves the scratch at this point's accumulator
    and the output's buffer at its cast where the copy-out runs, as it was found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hr := fun xo xa K => run_body (F := F) c (grid0.coords t) (ms0 t) (hs0 t) (ms1 t) (hs1 t) (ms2 t) (hs2 t) (ms3 t) (hs3 t)
    scM (Memref.isWhole_whole _) (iblk m c 0 t) (iblk m c 1 t) (iblk m c 2 t) xo xa Set.univ K
  unfold RunSpec at hr
  by_cases hC : condC (grid0.coords t)
  · rw [leaves_3 m c t hC]
    simp only [outStep, if_pos hC] at hr
    by_cases hz : t.val = 0
    · rw [PhiS_castSucc m c t, PhiS_zero m c _ _ hz, PhiA_eq]
      iintro ⟨⟨⟨%d, HS⟩, Hg⟩, Ho, ⟨%d0, H0⟩, ⟨%d1, H1⟩, ⟨%d2, H2⟩, ⟨%d3, H3⟩⟩
      rw [accAt_zero m c t hz d]
      iapply (hr _ d _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [PhiS_castSucc m c t, PhiS_pos m c _ _ hz, accAt_pos m c t hz]
      iintro ⟨⟨HS, Hg⟩, Ho, ⟨%d0, H0⟩, ⟨%d1, H1⟩, ⟨%d2, H2⟩, ⟨%d3, H3⟩⟩
      iapply (hr _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
  · rw [Dat.leavesExact_idle (dats m 0 c) 3 t (idle3 t hC) (noFlush3 t hC)]
    simp only [outStep, if_neg hC] at hr
    by_cases hz : t.val = 0
    · rw [PhiS_castSucc m c t, PhiS_zero m c _ _ hz, PhiA_eq]
      iintro ⟨⟨⟨%d, HS⟩, Hg⟩, Ho, ⟨%d0, H0⟩, ⟨%d1, H1⟩, ⟨%d2, H2⟩, ⟨%d3, H3⟩⟩
      rw [accAt_zero m c t hz d]
      iapply (hr _ d _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz, accAt_pos m c t hz]
      iintro ⟨⟨HS, Hg⟩, Ho, ⟨%d0, H0⟩, ⟨%d1, H1⟩, ⟨%d2, H2⟩, ⟨%d3, H3⟩⟩
      iapply (hr _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-- What the launch lends is the invariant before the first point. -/
theorem phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, forgetting what the scratch holds. -/
theorem phi_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 1024 := N_0; omega), PhiA_eq]
  iintro ⟨HS, Hg⟩
  isplitl [HS]
  · iexists _; iexact HS
  iexact Hg

/-! ## The run and the frame -/

set_option backward.isDefEq.respectTransparency.types false in
/-- Every weakly fair execution of the program terminates without fault, each array of the pipeline ending at what the
    write-backs of the proof data make of it and every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.IdealStep.lean ====
/-
  One grid point of the causal linear-attention kernel, as pure functions of what the point finds.

  The body has three guarded blocks. With (bh, qi, ki) the point's coordinates:
    * at ki = 0 the accumulator (the scratch block, 512 x 128) is overwritten with zeros;
    * where ki <= qi the accumulator receives  acc + mask(q k^T) v  for the point's q, k, v blocks,
      the mask keeping entry (r, c) of the 512 x 512 score tile when  512 qi + r >= 512 ki + c;
    * at ki = 3 the accumulator is copied into the output block.
  `accStep` is the accumulator after the point as a function of the three input blocks and of the accumulator
  before it, `outStep` the output block's staging contents after the point. The theorems `run_…` say, for each
  assignment of the three guards, that the body run on whole buffers holding those values terminates without
  fault, leaves the three input blocks as they were, the accumulator at `accStep` and the output block at `outStep`.
  Nothing here depends on the float instance.
-/
import proofs.«108944_j52836687676079_1_alg».proof.Proof.Gen.KernelIdeal.Frame
import proofs.«108944_j52836687676079_1_alg».proof.Proof.Gen.KernelIdeal.Skeleton
import Idealize.ShloMosaic.Lib.Pipeline.Value
import proofs.«108944_j52836687676079_1_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.LibWholeStore

/-- The guard of the zero fill: the innermost grid coordinate is 0. -/
abbrev condA (i : grid0.Coords) : Prop := (Scalar.cmpi .ne (Scalar.extui (Scalar.cmpi .eq (BitVec.ofNat 32 (i 2).val) 0#32)) 0#32) = 1#1
/-- The guard of the accumulation: the key tile is not to the right of the query tile, ki <= qi. -/
abbrev condB (i : grid0.Coords) : Prop := (Scalar.cmpi .ne (Scalar.extui (Scalar.cmpi .sle (BitVec.ofNat 32 (i 2).val) (BitVec.ofNat 32 (i 1).val))) 0#32) = 1#1
/-- The guard of the copy-out: the innermost grid coordinate is the last, 3. -/
abbrev condC (i : grid0.Coords) : Prop := k0_cond3 i = 1#1

/-- An all-zero offset, rank 2 and rank 3. -/
theorem zero2 : (![0, 0] : Fin S512x128.rank → ℕ) = fun _ => 0 := by funext a; fin_cases a <;> rfl
theorem zero3 : (![0, 0, 0] : Fin S1x512x128.rank → ℕ) = fun _ => 0 := by funext a; fin_cases a <;> rfl

/-- The accumulator after a point: zeroed first where ki = 0, then increased by the masked tile product where ki <= qi. -/
def accStep (i : grid0.Coords) (xq xk xv : Vec F S1x512x128 .f32) (xa : Vec F S512x128 .f32) : Vec F S512x128 .f32 :=
  if condB i then k0_pay2 i xq xk xv (if condA i then k0_pay1 (F := F) else xa) else (if condA i then k0_pay1 (F := F) else xa)

/-- The output block's staging contents after a point: the accumulator where ki = 3, else what was there. -/
def outStep (i : grid0.Coords) (xq xk xv xo : Vec F S1x512x128 .f32) (xa : Vec F S512x128 .f32) : Vec F S1x512x128 .f32 :=
  if condC i then k0_pay3 (accStep i xq xk xv xa) else xo

/-- What a run of the body is: from whole buffers at the given contents to the continuation holding them at the step's. -/
def RunSpec (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (xq xk xv xo : Vec F S1x512x128 .f32) (xa : Vec F S512x128 .f32) (E : Set ℕ) (K : PUnit → sProp 𝕄) : Prop :=
    iprop(owns (c : Thread nD τ) arg3 fullShare xq ∗ owns (c : Thread nD τ) arg4 fullShare xk ∗ owns (c : Thread nD τ) arg5 fullShare xv
        ∗ owns (c : Thread nD τ) arg6 fullShare xo ∗ owns (c : Thread nD τ) arg7 fullShare xa
        ∗ (iprop(owns (c : Thread nD τ) arg3 fullShare xq ∗ owns (c : Thread nD τ) arg4 fullShare xk ∗ owns (c : Thread nD τ) arg5 fullShare xv
            ∗ owns (c : Thread nD τ) arg6 fullShare (outStep i xq xk xv xo xa) ∗ owns (c : Thread nD τ) arg7 fullShare (accStep i xq xk xv xa)) -∗ K ⟨⟩))
      ⊢ wp frame (wpE (defs₀ (F := F)) Variants.none c none) E (cc0__kernel i arg3 harg3 arg4 harg4 arg5 harg5 arg6 harg6 arg7 harg7) K

theorem run_ABC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_pos hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_ABc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_pos hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_AbC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : ¬condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_neg hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_Abc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : condA i) (hB : ¬condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_pos hA, if_neg hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_aBC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_pos hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_aBc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_pos hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      sl_unfold_words
      rw [read_writes_whole (S := S512x128) _ _ zero2]
      try simp only [View.readCov_cons_toLoadRect, View.readAt_eq_ld, harg7.read_unread, View.ld_unit_zero (S := S512x128) zero2, harg3.read_unread, harg4.read_unread, harg5.read_unread, View.ld_unit_zero (S := S1x512x128) zero3]

theorem run_abC (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : ¬condB i) (hC : condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_neg hB, if_pos hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        sl_unfold_words
        rw [read_writes_whole (S := S1x512x128) _ _ zero3]
        try simp only [View.readCov_cons_toLoadRect, View.readAt_eq_ld, harg7.read_unread, View.ld_unit_zero (S := S512x128) zero2, harg3.read_unread, harg4.read_unread, harg5.read_unread, View.ld_unit_zero (S := S1x512x128) zero3]
      iexists _; isplitr
      swap; · iexact H7
      ipureintro
      exact hf7

theorem run_abc (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (hA : ¬condA i) (hB : ¬condB i) (hC : ¬condC i)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  unfold RunSpec outStep accStep
  simp only [if_neg hA, if_neg hB, if_neg hC]
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  ·
      sl_exec (disch := first | exact hA | exact hB | exact hC)
      sl_step
      iapply Hk
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [H6]
      · iexists _; isplitr
        swap; · iexact H6
        ipureintro
        exact hf6
      iexists _; isplitr
      swap; · iexact H7
      ipureintro
      exact hf7

/-- The body at any point, whatever the three guards say. -/
theorem run_body (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S512x128 .f32) (harg7 : arg7.IsWhole)
    (xq xk xv xo : Vec F S1x512x128 .f32) (xa : Vec F S512x128 .f32) (E : Set ℕ) (K : PUnit → sProp 𝕄) :
    RunSpec (F := F) c i arg3 harg3 arg4 harg4 arg5 harg5 arg6 harg6 arg7 harg7 xq xk xv xo xa E K := by
  by_cases hA : condA i <;> by_cases hB : condB i <;> by_cases hC : condC i
  · exact run_ABC c i _ _ _ _ _ _ _ _ _ _ hA hB hC _ _ _ _ _ _ _
  · exact run_ABc c i _ _ _ _ _ _ _ _ _ _ hA hB hC _ _ _ _ _ _ _
  · exact run_AbC c i _ _ _ _ _ _ _ _ _ _ hA hB hC _ _ _ _ _ _ _
  · exact run_Abc c i _ _ _ _ _ _ _ _ _ _ hA hB hC _ _ _ _ _ _ _
  · exact run_aBC c i _ _ _ _ _ _ _ _ _ _ hA hB hC _ _ _ _ _ _ _
  · exact run_aBc c i _ _ _ _ _ _ _ _ _ _ hA hB hC _ _ _ _ _ _ _
  · exact run_abC c i _ _ _ _ _ _ _ _ _ _ hA hB hC _ _ _ _ _ _ _
  · exact run_abc c i _ _ _ _ _ _ _ _ _ _ hA hB hC _ _ _ _ _ _ _

end Cert.KernelIdeal.Hand

end
-- ==== Proof.IdealFrame.lean ====
/-
  The frame of the causal linear-attention kernel: it runs to the end, faults nowhere, and leaves its arguments alone.

  The grid is (bh, qi, ki) with ki innermost, so the accumulator (a scratch block the pipeline does not stage) lives
  across the four consecutive points of one (bh, qi): zeroed at ki = 0, increased where ki <= qi, copied out at ki = 3.
  `accAt n` is the accumulator after point n, by recursion on n through the previous module's `accStep`; the region's
  invariant before point n + 1 holds the scratch at `accAt n`. The output window's staging block is stored only at
  ki = 3 — the points where the pipeline writes it back — and is handed back untouched elsewhere. With that the body
  obligation at a point is one run of the body (whatever its guards say), and the launch theorem for a region with host
  operations on both sides gives the run; the frame claim is read off its post.
-/
import proofs.«108944_j52836687676079_1_alg».proof.Proof.IdealStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The guards and the schedule, decided over the 1024 grid points -/

/-- The first point zeroes the accumulator. -/
theorem condA_zero : ∀ t : Fin cfg0.N, t.val = 0 → condA (grid0.coords t) :=
  (by decide +kernel : ∀ t : Fin grid0.N, t.val = 0 → condA (grid0.coords t))
/-- The three input windows are stored into at no point, so they are never idle outputs. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is live exactly where the copy-out's guard holds, -/
theorem live3 : ∀ t : Fin cfg0.N, condC (grid0.coords t) → cfg0.idle 3 (grid0.coords t) = false := by decide +kernel
theorem idle3 : ∀ t : Fin cfg0.N, ¬condC (grid0.coords t) → cfg0.idle 3 (grid0.coords t) = true := by decide +kernel
/-- and where it does not hold the pipeline does not write the block back. -/
theorem noFlush3 : ∀ t : Fin cfg0.N, ¬condC (grid0.coords t) → (cfg0.win 3).flush t = false := by decide +kernel

/-! ## The buffers the body is called with -/

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x128 .f32 := win0_3.stage (cfg0.slots t 3)
abbrev hs3 (t : Fin cfg0.N) : (ms3 t).IsWhole := hstage0_3 ((cfg0.slots t 3).cast nbuf0_3)
/-- The accumulator: the kernel's one scratch buffer, whole. -/
abbrev scM : Memref sig .tc .vmem S512x128 .f32 := Memref.whole cc0_scratch0

/-- What the launch lends the body besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator, point by point -/

/-- The accumulator after point `n`: the step at `n` from the point's three input blocks and the accumulator after
    `n - 1` (at the first point from zeros: the step there overwrites whatever it finds). -/
def accAt (c : Dev nD) : (n : ℕ) → n < cfg0.N → Vec F S512x128 .f32
  | 0, hn => accStep (grid0.coords ⟨0, hn⟩) (iblk m c 0 ⟨0, hn⟩) (iblk m c 1 ⟨0, hn⟩) (iblk m c 2 ⟨0, hn⟩) (k0_pay1 (F := F))
  | n + 1, hn => accStep (grid0.coords ⟨n + 1, hn⟩) (iblk m c 0 ⟨n + 1, hn⟩) (iblk m c 1 ⟨n + 1, hn⟩) (iblk m c 2 ⟨n + 1, hn⟩)
      (accAt c n (Nat.lt_of_succ_lt hn))

theorem accAt_pos (c : Dev nD) (t : Fin cfg0.N) (hz : t.val ≠ 0) :
    accAt m c t.val t.isLt = accStep (grid0.coords t) (iblk m c 0 t) (iblk m c 1 t) (iblk m c 2 t)
      (accAt m c (t.val - 1) (Nat.lt_of_le_of_lt (Nat.sub_le _ _) t.isLt)) := by
  obtain ⟨n, hn⟩ := t
  cases n with
  | zero => exact absurd rfl hz
  | succ n => rfl

/-- At the first point the step does not depend on what the scratch held. -/
theorem accAt_zero (c : Dev nD) (t : Fin cfg0.N) (hz : t.val = 0) (d : Vec F S512x128 .f32) :
    accAt m c t.val t.isLt = accStep (grid0.coords t) (iblk m c 0 t) (iblk m c 1 t) (iblk m c 2 t) d := by
  have hA := condA_zero t hz
  obtain ⟨n, hn⟩ := t
  cases n with
  | succ n => exact absurd hz (Nat.succ_ne_zero n)
  | zero =>
    show accStep _ _ _ _ (k0_pay1 (F := F)) = accStep _ _ _ _ d
    unfold accStep; simp only [if_pos hA]

/-- The region's invariant before position `n`: what the launch lends before the first point; afterwards the scratch
    at the accumulator the point before left, and the generator register. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- On core `c`: the arrays as the region finds them; after the body each input's buffer still at its block and the
    output's at the accumulator cast to the block's shape (consulted only where the block is written back); the
    invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (accAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body must leave in each input's buffer: its block. -/
theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after_2]
/-- In the output's buffer, where the copy-out runs: the accumulator, cast. -/
theorem leaves_3 (c : Dev nD) (t : Fin cfg0.N) (hC : condC (grid0.coords t)) :
    (dats m 0 c).leavesExact 3 t = owns (c : Thread nD τ) (ms3 t) fullShare (k0_pay3 (accAt m c t.val t.isLt)) := by
  rw [show (dats m 0 c).leavesExact 3 t = owns (c : Thread nD τ) (ms3 t) fullShare ((dats m 0 c).after 3 t) from by
    unfold Dat.leavesExact; rw [live3 t hC], after_3]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. The inputs' buffers hold their blocks; the scratch holds what the point before left (anything,
    at the first point, where the step overwrites it); one run of the body leaves the scratch at this point's accumulator
    and the output's buffer at its cast where the copy-out runs, as it was found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hr := fun xo xa K => run_body (F := F) c (grid0.coords t) (ms0 t) (hs0 t) (ms1 t) (hs1 t) (ms2 t) (hs2 t) (ms3 t) (hs3 t)
    scM (Memref.isWhole_whole _) (iblk m c 0 t) (iblk m c 1 t) (iblk m c 2 t) xo xa Set.univ K
  unfold RunSpec at hr
  by_cases hC : condC (grid0.coords t)
  · rw [leaves_3 m c t hC]
    simp only [outStep, if_pos hC] at hr
    by_cases hz : t.val = 0
    · rw [PhiS_castSucc m c t, PhiS_zero m c _ _ hz, PhiA_eq]
      iintro ⟨⟨⟨%d, HS⟩, Hg⟩, Ho, ⟨%d0, H0⟩, ⟨%d1, H1⟩, ⟨%d2, H2⟩, ⟨%d3, H3⟩⟩
      rw [accAt_zero m c t hz d]
      iapply (hr _ d _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [PhiS_castSucc m c t, PhiS_pos m c _ _ hz, accAt_pos m c t hz]
      iintro ⟨⟨HS, Hg⟩, Ho, ⟨%d0, H0⟩, ⟨%d1, H1⟩, ⟨%d2, H2⟩, ⟨%d3, H3⟩⟩
      iapply (hr _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
  · rw [Dat.leavesExact_idle (dats m 0 c) 3 t (idle3 t hC) (noFlush3 t hC)]
    simp only [outStep, if_neg hC] at hr
    by_cases hz : t.val = 0
    · rw [PhiS_castSucc m c t, PhiS_zero m c _ _ hz, PhiA_eq]
      iintro ⟨⟨⟨%d, HS⟩, Hg⟩, Ho, ⟨%d0, H0⟩, ⟨%d1, H1⟩, ⟨%d2, H2⟩, ⟨%d3, H3⟩⟩
      rw [accAt_zero m c t hz d]
      iapply (hr _ d _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz, accAt_pos m c t hz]
      iintro ⟨⟨HS, Hg⟩, Ho, ⟨%d0, H0⟩, ⟨%d1, H1⟩, ⟨%d2, H2⟩, ⟨%d3, H3⟩⟩
      iapply (hr _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-- What the launch lends is the invariant before the first point. -/
theorem phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, forgetting what the scratch holds. -/
theorem phi_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 1024 := N_0; omega), PhiA_eq]
  iintro ⟨HS, Hg⟩
  isplitl [HS]
  · iexists _; iexact HS
  iexact Hg

/-! ## The run and the frame -/

set_option backward.isDefEq.respectTransparency.types false in
/-- Every weakly fair execution of the program terminates without fault, each array of the pipeline ending at what the
    write-backs of the proof data make of it and every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibNatReadRanks.lean ====
/-
  Arrays of rank one, three and four read at natural numbers.

  Companion of the rank-two reading: an array is read at natural numbers, each reduced modulo the extent of its axis,
  so that a position written as "block offset + position inside the block", or as a quotient and a remainder of a
  flattened position, is compared with another by arithmetic alone and no bound is carried inside a term.  At numbers
  below the extents the reading is the entry itself.
-/
import Idealize.ShloMosaic.Lib.ValueIdx

noncomputable section

namespace Cert.LibNatReadRanks

open Idealize.ShloMosaic Idealize.ShloMosaic.ValueIdx

variable {α : Type}

/-- The entry of a vector [a] at position r mod a. -/
def rd1 {a : ℕ} (ha : 0 < a) (X : (⟨1, ![a]⟩ : Shape).Idx → α) (r : ℕ) : α :=
  X (ix1 (⟨r % a, Nat.mod_lt _ ha⟩ : Fin a))

/-- The entry at an index is the reading at the index's coordinate. -/
theorem rd1_eq {a : ℕ} (ha : 0 < a) (X : (⟨1, ![a]⟩ : Shape).Idx → α) (i : (⟨1, ![a]⟩ : Shape).Idx)
    (r : ℕ) (h0 : (i 0).val = r) : X i = rd1 ha X r := by
  unfold rd1
  refine congrArg X (funext fun ax => Fin.ext ?_)
  match ax with
  | ⟨0, _⟩ =>
    show (i 0).val = r % a
    rw [← h0]; exact (Nat.mod_eq_of_lt (show (i 0).val < a from (i 0).isLt)).symm

/-- The entry of an [a, b, c] array at (p mod a, q mod b, r mod c). -/
def rd3 {a b c : ℕ} (ha : 0 < a) (hb : 0 < b) (hc : 0 < c) (X : (⟨3, ![a, b, c]⟩ : Shape).Idx → α) (p q r : ℕ) : α :=
  X (ix3 (⟨p % a, Nat.mod_lt _ ha⟩ : Fin a) (⟨q % b, Nat.mod_lt _ hb⟩ : Fin b) (⟨r % c, Nat.mod_lt _ hc⟩ : Fin c))

/-- The entry at an index is the reading at the index's three coordinates. -/
theorem rd3_eq {a b c : ℕ} (ha : 0 < a) (hb : 0 < b) (hc : 0 < c) (X : (⟨3, ![a, b, c]⟩ : Shape).Idx → α)
    (i : (⟨3, ![a, b, c]⟩ : Shape).Idx) (p q r : ℕ) (h0 : (i 0).val = p) (h1 : (i 1).val = q) (h2 : (i 2).val = r) :
    X i = rd3 ha hb hc X p q r := by
  unfold rd3
  refine congrArg X (funext fun ax => Fin.ext ?_)
  match ax with
  | ⟨0, _⟩ =>
    show (i 0).val = p % a
    rw [← h0]; exact (Nat.mod_eq_of_lt (show (i 0).val < a from (i 0).isLt)).symm
  | ⟨1, _⟩ =>
    show (i 1).val = q % b
    rw [← h1]; exact (Nat.mod_eq_of_lt (show (i 1).val < b from (i 1).isLt)).symm
  | ⟨2, _⟩ =>
    show (i 2).val = r % c
    rw [← h2]; exact (Nat.mod_eq_of_lt (show (i 2).val < c from (i 2).isLt)).symm

/-- The entry of an [a, b, c, d] array at (p mod a, q mod b, r mod c, s mod d). -/
def rd4 {a b c d : ℕ} (ha : 0 < a) (hb : 0 < b) (hc : 0 < c) (hd : 0 < d) (X : (⟨4, ![a, b, c, d]⟩ : Shape).Idx → α)
    (p q r s : ℕ) : α :=
  X (ix4 (⟨p % a, Nat.mod_lt _ ha⟩ : Fin a) (⟨q % b, Nat.mod_lt _ hb⟩ : Fin b) (⟨r % c, Nat.mod_lt _ hc⟩ : Fin c)
    (⟨s % d, Nat.mod_lt _ hd⟩ : Fin d))

/-- The entry at an index is the reading at the index's four coordinates. -/
theorem rd4_eq {a b c d : ℕ} (ha : 0 < a) (hb : 0 < b) (hc : 0 < c) (hd : 0 < d)
    (X : (⟨4, ![a, b, c, d]⟩ : Shape).Idx → α) (i : (⟨4, ![a, b, c, d]⟩ : Shape).Idx) (p q r s : ℕ)
    (h0 : (i 0).val = p) (h1 : (i 1).val = q) (h2 : (i 2).val = r) (h3 : (i 3).val = s) :
    X i = rd4 ha hb hc hd X p q r s := by
  unfold rd4
  refine congrArg X (funext fun ax => Fin.ext ?_)
  match ax with
  | ⟨0, _⟩ =>
    show (i 0).val = p % a
    rw [← h0]; exact (Nat.mod_eq_of_lt (show (i 0).val < a from (i 0).isLt)).symm
  | ⟨1, _⟩ =>
    show (i 1).val = q % b
    rw [← h1]; exact (Nat.mod_eq_of_lt (show (i 1).val < b from (i 1).isLt)).symm
  | ⟨2, _⟩ =>
    show (i 2).val = r % c
    rw [← h2]; exact (Nat.mod_eq_of_lt (show (i 2).val < c from (i 2).isLt)).symm
  | ⟨3, _⟩ =>
    show (i 3).val = s % d
    rw [← h3]; exact (Nat.mod_eq_of_lt (show (i 3).val < d from (i 3).isLt)).symm

end Cert.LibNatReadRanks

end
-- ==== Proof.AttnSpec.lean ====
/-
  Causal linear attention, as a function of three [64, 2048, 128] arrays Q, K, W (batch·head, position, feature).

    attn Q K W (b, r, d)  =  Σ_{j < 2048}  [j ≤ r] · (Σ_{e < 128} Q(b,r,e) · K(b,j,e)) · W(b,j,d)

  The summand is `term`; entries are read at natural numbers (each reduced modulo its extent, which changes nothing
  below the extents) so that sums over position ranges need no bound proofs inside terms. Two facts about sums of the
  terms over a tile of 512 key positions: a tile lying wholly to the right of the query row contributes nothing (every
  mask bit is off, and 0 · w = 0 for every extended real w), and the prefix sum up to k tiles plus tile k is the prefix
  sum up to k + 1 tiles. Only commutativity and associativity of + and the zero laws of · are used, so nothing here
  needs finite entries. Also here: the signed 32-bit comparison the kernel builds its mask from, read on natural numbers.
-/
import Idealize.ShloMosaic.PureOps.Ideal
import Idealize.ShloMosaic.Lib.ValueIdx
import Idealize.ShloMosaic.Lib.WordArith
import proofs.«108944_j52836687676079_1_alg».proof.Proof.LibNatReadRanks

noncomputable section

open scoped BigOperators

namespace Cert.AttnSpec

open Idealize.ShloMosaic Idealize.ShloMosaic.ValueIdx Cert.LibNatReadRanks

/-- The shape of the three arrays and of the result. -/
abbrev A3 : Shape := ⟨3, ![64, 2048, 128]⟩

/-- An entry read at natural numbers. -/
def rdA (X : A3.Idx → EReal) (b r e : ℕ) : EReal :=
  rd3 (a := 64) (b := 2048) (c := 128) (by decide) (by decide) (by decide) X b r e

/-- The score of query row r against key row j in batch·head b. -/
def score (Q K : A3.Idx → EReal) (b r j : ℕ) : EReal := ∑ e : Fin 128, rdA Q b r e.val * rdA K b j e.val

/-- One summand of the attention sum: the causally masked score times the value entry. -/
def term (Q K W : A3.Idx → EReal) (b r j d : ℕ) : EReal := (if j ≤ r then score Q K b r j else 0) * rdA W b j d

/-- Causal linear attention. -/
def attn (Q K W : A3.Idx → EReal) : A3.Idx → EReal :=
  fun x => ∑ j ∈ Finset.range 2048, term Q K W (x 0).val (x 1).val j (x 2).val

theorem term_zero_of_lt (Q K W : A3.Idx → EReal) (b r j d : ℕ) (h : r < j) : term Q K W b r j d = 0 := by
  unfold term; rw [if_neg (by omega), zero_mul]

/-- A key tile wholly to the right of the query row contributes nothing. -/
theorem tile_zero (Q K W : A3.Idx → EReal) (b r k d : ℕ) (h : r < k * 512) :
    ∑ c ∈ Finset.range 512, term Q K W b r (k * 512 + c) d = 0 :=
  Finset.sum_eq_zero fun c _ => term_zero_of_lt Q K W b r _ d (by omega)

/-- The first k tiles and then tile k are the first k + 1 tiles. -/
theorem prefix_step (Q K W : A3.Idx → EReal) (b r k d : ℕ) :
    ∑ j ∈ Finset.range (k * 512), term Q K W b r j d + ∑ c ∈ Finset.range 512, term Q K W b r (k * 512 + c) d
      = ∑ j ∈ Finset.range ((k + 1) * 512), term Q K W b r j d := by
  rw [show (k + 1) * 512 = k * 512 + 512 by ring, Finset.sum_range_add]

/-- The kernel's mask bit: with tile numbers a, b below 4 and offsets p, c below 512, the signed comparison
    512 a + p ≥ 512 b + c of 32-bit words is the comparison of the natural numbers (nothing overflows). -/
theorem mask_iff (a b p c : ℕ) (ha : a < 4) (hb : b < 4) (hp : p < 512) (hc : c < 512) :
    IntOp.cmpi .sge (IntOp.addi (Scalar.muli (BitVec.ofNat 32 a) 512#32) (BitVec.ofNat 32 p))
        (IntOp.addi (Scalar.muli (BitVec.ofNat 32 b) 512#32) (BitVec.ofNat 32 c)) = 1#1
      ↔ b * 512 + c ≤ a * 512 + p := by
  have e1 : IntOp.addi (Scalar.muli (BitVec.ofNat 32 a) 512#32) (BitVec.ofNat 32 p) = BitVec.ofNat 32 (a * 512 + p) := by
    show BitVec.ofNat 32 a * BitVec.ofNat 32 512 + BitVec.ofNat 32 p = _
    rw [← BitVec.ofNat_mul, ← BitVec.ofNat_add]
  have e2 : IntOp.addi (Scalar.muli (BitVec.ofNat 32 b) 512#32) (BitVec.ofNat 32 c) = BitVec.ofNat 32 (b * 512 + c) := by
    show BitVec.ofNat 32 b * BitVec.ofNat 32 512 + BitVec.ofNat 32 c = _
    rw [← BitVec.ofNat_mul, ← BitVec.ofNat_add]
  rw [e1, e2]
  show BitVec.ofBool (BitVec.sle (BitVec.ofNat 32 (b * 512 + c)) (BitVec.ofNat 32 (a * 512 + p))) = 1#1 ↔ _
  rw [WordArith.ofBool_eq_one_iff, BitVec.sle, decide_eq_true_eq,
    WordArith.toInt_ofNat_small _ (by omega), WordArith.toInt_ofNat_small _ (by omega)]
  omega

end Cert.AttnSpec

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.IdealPayload.lean ====
/-
  The kernel body's three stored values, read at an index, on the extended reals.

  * the zero fill is 0 everywhere;
  * the copy-out is the accumulator with a unit axis in front;
  * the accumulation stores, at (p, d),   acc(p, d) + Σ_{c < 512} [512 ki + c ≤ 512 qi + p] · (Σ_e q(p,e) · k(c,e)) · v(c,d):
    changes of float format are the identity on the extended reals, a matrix product into the zero accumulator is
    the plain contraction sum, and the select against the zero splat is the mask written with an if.
-/
import proofs.«108944_j52836687676079_1_alg».proof.Proof.Gen.KernelIdeal.Skeleton
import proofs.«108944_j52836687676079_1_alg».proof.Proof.AttnSpec
import proofs.«108944_j52836687676079_1_alg».proof.Proof.LibMatmulRows
import proofs.«108944_j52836687676079_1_alg».proof.Proof.LibRowRowDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The zero fill. -/
theorem pay1_apply (j : S512x128.Idx) : k0_pay1 (F := Ideal) j = 0 := by
  unfold k0_pay1
  rw [shapeCast_self]
  exact Ideal.ofBits_zero_f32

/-- The copy-out: the block's entry (u, p, d) is the accumulator's (p, d). -/
theorem pay3_apply (a : Vec Ideal S512x128 .f32) (y : S1x512x128.Idx) : k0_pay3 (F := Ideal) a y = a (fun ax => y ax.succ) := by
  unfold k0_pay3
  exact shapeCast_addUnit_apply ![512, 128] a _ y

/-- A [1, 512, 128] block viewed as [512, 128]. -/
theorem drop_apply (x : Vec Ideal S1x512x128 .f32) (p : Fin 512) (e : Fin 128) :
    shapeCast S512x128 x shapeCasts_S1x512x128_S512x128 (ix2 p e) = x (ix3 (0 : Fin 1) p e) := by
  rw [show shapeCast S512x128 x shapeCasts_S1x512x128_S512x128 (ix2 p e) = x (Fin.cons ⟨0, Nat.one_pos⟩ (ix2 p e)) from
    shapeCast_dropUnit_apply ![512, 128] x _ (ix2 p e)]
  refine congrArg x (funext fun ax => ?_)
  match ax with
  | ⟨0, _⟩ => rfl
  | ⟨1, _⟩ => rfl
  | ⟨2, _⟩ => rfl

/-- The accumulation's stored value at (p, d). -/
theorem pay2_apply (i : grid0.Coords) (x0 x1 x2 : Vec Ideal S1x512x128 .f32) (a : Vec Ideal S512x128 .f32) (p : Fin 512) (d : Fin 128) :
    k0_pay2 (F := Ideal) i x0 x1 x2 a (ix2 p d)
      = a (ix2 p d) + ∑ c : Fin 512, (if (i 2).val * 512 + c.val ≤ (i 1).val * 512 + p.val
          then ∑ e : Fin 128, x0 (ix3 (0 : Fin 1) p e) * x1 (ix3 (0 : Fin 1) c e) else 0) * x2 (ix3 (0 : Fin 1) c d) := by
  unfold k0_pay2
  dsimp only
  rw [shapeCast_self, addf_apply]
  congr 1
  rw [Cert.LibMatmulRows.matmul_rows_apply dot_S512x512_S512x128_S512x128_1_0_0_1_n_n rfl rfl
    (fun j q => by
      unfold DotDims.lhsIdx
      rw [dif_neg (show ¬(0 : Fin S512x512.rank) ∈ dot_S512x512_S512x128_S512x128_1_0_0_1_n_n.lhsBatch by decide),
        dif_pos (show (0 : Fin S512x512.rank) ∈ dot_S512x512_S512x128_S512x128_1_0_0_1_n_n.lhsNonContracting by decide)]
      rfl)
    (fun j q => dot_S512x512_S512x128_S512x128_1_0_0_1_n_n.lhsIdx_val_of_single rfl j q)
    (fun j q => dot_S512x512_S512x128_S512x128_1_0_0_1_n_n.rhsIdx_val_of_single rfl j q)
    (fun j q => by
      unfold DotDims.rhsIdx
      rw [dif_neg (show ¬(1 : Fin S512x128.rank) ∈ dot_S512x512_S512x128_S512x128_1_0_0_1_n_n.rhsBatch by decide),
        dif_pos (show (1 : Fin S512x128.rank) ∈ dot_S512x512_S512x128_S512x128_1_0_0_1_n_n.rhsNonContracting by decide)]
      rfl)]
  refine Finset.sum_congr rfl fun c _ => ?_
  rw [truncf_apply, truncf_apply, drop_apply, select_apply]
  congr 1
  have hq : (i 1).val < 4 := (i 1).isLt
  have hk : (i 2).val < 4 := (i 2).isLt
  have hmask := Cert.AttnSpec.mask_iff (i 1).val (i 2).val p.val c.val hq hk p.isLt c.isLt
  have e0 : iota Kind.tc S512x512 32 [0] iota_S512x512_d0_w32 (ix2 p c) = BitVec.ofNat 32 p.val :=
    iota_single_apply .tc S512x512 32 0 _ (ix2 p c)
  have e1 : iota Kind.tc S512x512 32 [1] iota_S512x512_d1_w32 (ix2 p c) = BitVec.ofNat 32 c.val :=
    iota_single_apply .tc S512x512 32 1 _ (ix2 p c)
  have hw : cmpi CmpIPredicate.sge
        (addi (broadcast S512x512 (Scalar.muli (BitVec.ofNat 32 (i 1).val) 512#32)) (iota Kind.tc S512x512 32 [0] iota_S512x512_d0_w32))
        (addi (broadcast S512x512 (Scalar.muli (BitVec.ofNat 32 (i 2).val) 512#32)) (iota Kind.tc S512x512 32 [1] iota_S512x512_d1_w32))
        (ix2 p c)
      = IntOp.cmpi .sge (IntOp.addi (Scalar.muli (BitVec.ofNat 32 (i 1).val) 512#32) (BitVec.ofNat 32 p.val))
        (IntOp.addi (Scalar.muli (BitVec.ofNat 32 (i 2).val) 512#32) (BitVec.ofNat 32 c.val)) := by
    show IntOp.cmpi .sge (IntOp.addi _ (iota Kind.tc S512x512 32 [0] iota_S512x512_d0_w32 (ix2 p c)))
      (IntOp.addi _ (iota Kind.tc S512x512 32 [1] iota_S512x512_d1_w32 (ix2 p c))) = _
    rw [e0, e1]
    rfl
  rw [hw]
  by_cases h : (i 2).val * 512 + c.val ≤ (i 1).val * 512 + p.val
  · rw [if_pos h, hmask.mpr h, select_one]
    refine (Cert.LibRowRowDot.matmul_zero_rows_apply dot_S512x128_S512x128_S512x512_1_1_0_0_n_n rfl rfl rfl rfl rfl rfl none _ _ p c).trans ?_
    refine Finset.sum_congr rfl fun e _ => ?_
    rw [truncf_apply, truncf_apply, drop_apply, drop_apply]
  · rw [if_neg h, eq_zero_of_ne_one (mt hmask.mp h), select_zero]
    exact Ideal.ofBits_zero_f32

end Cert.KernelIdeal.Payload

end
-- ==== Proof.IdealAcc.lean ====
/-
  What the accumulator holds after each grid point, at an index, on the extended reals.

  Point n of the grid is (bh, qi, ki) = (n / 16, n / 4 mod 4, n mod 4). With Q, K, W the three [64, 2048, 128] arrays as
  the region finds them, the query block at the point is rows 512 qi .. 512 qi + 511 of Q's slab bh and the key and value
  blocks rows 512 ki .. 512 ki + 511 of K's and W's. One step of the body therefore adds, at (p, d), the terms of
  the attention sum for query row 512 qi + p over key tile ki — all of them zero when the tile lies to the right of the
  row, which is exactly when the body skips the accumulation — and the accumulator after point n holds the prefix of
  the attention sum over key rows below 512 (ki + 1).
-/
import proofs.«108944_j52836687676079_1_alg».proof.Proof.IdealFrame
import proofs.«108944_j52836687676079_1_alg».proof.Proof.IdealPayload

set_option maxRecDepth 16384

noncomputable section

open scoped BigOperators

namespace Cert.KernelIdeal.Attn

open Cert.KernelIdeal Cert.KernelIdeal.Gen Cert.KernelIdeal.Hand Cert.KernelIdeal.Payload Cert.AttnSpec Cert.LibNatReadRanks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three arrays as the region finds them. -/
abbrev Qa (c : Dev nD) : A3.Idx → EReal := V m c main_v0
abbrev Ka (c : Dev nD) : A3.Idx → EReal := V m c main_v1
abbrev Wa (c : Dev nD) : A3.Idx → EReal := V m c main_v2

/-! ## The grid, decided over its 1024 points -/

theorem coords_facts : ∀ t : Fin cfg0.N, (grid0.coords t 0).val = t.val / 16 ∧ (grid0.coords t 1).val = t.val / 4 % 4
    ∧ (grid0.coords t 2).val = t.val % 4 :=
  (by decide +kernel : ∀ t : Fin grid0.N, _)

/-- Which block of its array each window holds at a point. -/
theorem index_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

theorem condA_iff : ∀ t : Fin cfg0.N, condA (grid0.coords t) ↔ t.val % 4 = 0 :=
  (by decide +kernel : ∀ t : Fin grid0.N, _)
theorem condB_iff : ∀ t : Fin cfg0.N, condB (grid0.coords t) ↔ t.val % 4 ≤ t.val / 4 % 4 :=
  (by decide +kernel : ∀ t : Fin grid0.N, _)

/-! ## The blocks -/

theorem iblk0_apply (c : Dev nD) (t : Fin cfg0.N) (p : Fin 512) (e : Fin 128) :
    iblk m c 0 t (ix3 (0 : Fin 1) p e) = rdA (Qa m c) (t.val / 16) (t.val / 4 % 4 * 512 + p.val) e.val := by
  obtain ⟨h0, h1, h2, -⟩ := index_facts t
  show V m c main_v0 (((cfg0.win 0).blk t).view.emb (ix3 (0 : Fin 1) p e)) = _
  unfold rdA
  exact rd3_eq _ _ _ _ _ _ _ _
    (by show win0_0.index t (0 : Fin 3) * 1 + 1 * 0 = _; omega)
    (by show win0_0.index t (1 : Fin 3) * 512 + 1 * p.val = _; omega)
    (by show win0_0.index t (2 : Fin 3) * 128 + 1 * e.val = _; omega)

theorem iblk1_apply (c : Dev nD) (t : Fin cfg0.N) (p : Fin 512) (e : Fin 128) :
    iblk m c 1 t (ix3 (0 : Fin 1) p e) = rdA (Ka m c) (t.val / 16) (t.val % 4 * 512 + p.val) e.val := by
  obtain ⟨-, -, -, h0, h1, h2, -⟩ := index_facts t
  show V m c main_v1 (((cfg0.win 1).blk t).view.emb (ix3 (0 : Fin 1) p e)) = _
  unfold rdA
  exact rd3_eq _ _ _ _ _ _ _ _
    (by show win0_1.index t (0 : Fin 3) * 1 + 1 * 0 = _; omega)
    (by show win0_1.index t (1 : Fin 3) * 512 + 1 * p.val = _; omega)
    (by show win0_1.index t (2 : Fin 3) * 128 + 1 * e.val = _; omega)

theorem iblk2_apply (c : Dev nD) (t : Fin cfg0.N) (p : Fin 512) (e : Fin 128) :
    iblk m c 2 t (ix3 (0 : Fin 1) p e) = rdA (Wa m c) (t.val / 16) (t.val % 4 * 512 + p.val) e.val := by
  obtain ⟨-, -, -, -, -, -, h0, h1, h2, -⟩ := index_facts t
  show V m c main_v2 (((cfg0.win 2).blk t).view.emb (ix3 (0 : Fin 1) p e)) = _
  unfold rdA
  exact rd3_eq _ _ _ _ _ _ _ _
    (by show win0_2.index t (0 : Fin 3) * 1 + 1 * 0 = _; omega)
    (by show win0_2.index t (1 : Fin 3) * 512 + 1 * p.val = _; omega)
    (by show win0_2.index t (2 : Fin 3) * 128 + 1 * e.val = _; omega)

/-! ## One step, at an index -/

/-- The accumulator after point `t` at (p, d): zero or what it held, plus key tile ki's terms for query row 512 qi + p. -/
theorem step_apply (c : Dev nD) (t : Fin cfg0.N) (a : Vec Ideal S512x128 .f32) (p : Fin 512) (d : Fin 128) :
    accStep (F := Ideal) (grid0.coords t) (iblk m c 0 t) (iblk m c 1 t) (iblk m c 2 t) a (ix2 p d)
      = (if t.val % 4 = 0 then 0 else a (ix2 p d))
        + ∑ cc ∈ Finset.range 512, term (Qa m c) (Ka m c) (Wa m c) (t.val / 16) (t.val / 4 % 4 * 512 + p.val) (t.val % 4 * 512 + cc) d.val := by
  obtain ⟨g0, g1, g2⟩ := coords_facts t
  have hbase : (if condA (grid0.coords t) then k0_pay1 (F := Ideal) else a) (ix2 p d) = if t.val % 4 = 0 then 0 else a (ix2 p d) := by
    by_cases hA : condA (grid0.coords t)
    · rw [if_pos hA, if_pos ((condA_iff t).mp hA), pay1_apply]
    · rw [if_neg hA, if_neg (mt (condA_iff t).mpr hA)]
  unfold accStep
  by_cases hB : condB (grid0.coords t)
  · rw [if_pos hB, pay2_apply, hbase, Finset.sum_range]
    refine congrArg (fun z => (if t.val % 4 = 0 then (0 : EReal) else a (ix2 p d)) + z) ?_
    refine Finset.sum_congr rfl fun cc _ => ?_
    simp only [iblk0_apply, iblk1_apply, iblk2_apply, g1, g2]
    rfl
  · rw [if_neg hB, hbase, tile_zero _ _ _ _ _ _ _ (by
      have := mt (condB_iff t).mpr hB
      have hp := p.isLt
      omega), add_zero]

/-! ## The accumulator after every point -/

/-- After point n the accumulator holds, at (p, d), the attention sum's prefix over key rows below 512 (ki + 1). -/
theorem acc_inv (c : Dev nD) : ∀ (n : ℕ) (hn : n < cfg0.N) (p : Fin 512) (d : Fin 128),
    accAt m c n hn (ix2 p d)
      = ∑ j ∈ Finset.range ((n % 4 + 1) * 512), term (Qa m c) (Ka m c) (Wa m c) (n / 16) (n / 4 % 4 * 512 + p.val) j d.val
  | 0, hn, p, d => by
    show accStep (F := Ideal) (grid0.coords ⟨0, hn⟩) (iblk m c 0 ⟨0, hn⟩) (iblk m c 1 ⟨0, hn⟩) (iblk m c 2 ⟨0, hn⟩) (k0_pay1 (F := Ideal)) (ix2 p d) = _
    rw [step_apply m c ⟨0, hn⟩]
    simp only [Nat.zero_mod, if_true, zero_add, Nat.zero_div, zero_mul, one_mul]
  | n + 1, hn, p, d => by
    show accStep (F := Ideal) (grid0.coords ⟨n + 1, hn⟩) (iblk m c 0 ⟨n + 1, hn⟩) (iblk m c 1 ⟨n + 1, hn⟩) (iblk m c 2 ⟨n + 1, hn⟩)
      (accAt m c n (Nat.lt_of_succ_lt hn)) (ix2 p d) = _
    rw [step_apply m c ⟨n + 1, hn⟩]
    show (if (n + 1) % 4 = 0 then 0 else accAt m c n (Nat.lt_of_succ_lt hn) (ix2 p d))
        + ∑ cc ∈ Finset.range 512, term (Qa m c) (Ka m c) (Wa m c) ((n + 1) / 16) ((n + 1) / 4 % 4 * 512 + p.val) ((n + 1) % 4 * 512 + cc) d.val = _
    by_cases h : (n + 1) % 4 = 0
    · rw [if_pos h, zero_add, h]
      simp only [zero_mul, zero_add, one_mul]
    · rw [if_neg h, acc_inv c n (Nat.lt_of_succ_lt hn) p d]
      have e1 : n % 4 + 1 = (n + 1) % 4 := by omega
      have e2 : n / 16 = (n + 1) / 16 := by omega
      have e3 : n / 4 % 4 = (n + 1) / 4 % 4 := by omega
      rw [e1, e2, e3]
      exact prefix_step _ _ _ _ _ _ _

/-- The same at any index of the accumulator's shape. -/
theorem acc_inv_idx (c : Dev nD) (n : ℕ) (hn : n < cfg0.N) (j : S512x128.Idx) :
    accAt m c n hn j
      = ∑ k ∈ Finset.range ((n % 4 + 1) * 512), term (Qa m c) (Ka m c) (Wa m c) (n / 16) (n / 4 % 4 * 512 + (j 0).val) k (j 1).val := by
  rw [eq_ix2 j]; exact acc_inv m c n hn (j 0) (j 1)

end Cert.KernelIdeal.Attn

end
-- ==== Proof.AttnSpec4.lean ====
/-
  Causal linear attention on [4, 16, 2048, 128] arrays (batch, head, position, feature): the batch and head axes are
  merged into one axis of extent 64, attention is taken per merged index, and the axis is split again. Row-major
  position is what a reshape preserves, so entry (16 b + h, r, e) of a merged array is entry (b, h, r, e) of the
  original; read at an index the result is the masked double sum one expects. Also here: the reference's mask bit,
  the signed comparison r + 0 ≥ k of 32-bit words for positions below 2048, on natural numbers.
-/
import proofs.«108944_j52836687676079_1_alg».proof.Proof.AttnSpec
import Idealize.ShloMosaic.Lib.Pipeline.Value

noncomputable section

open scoped BigOperators

namespace Cert.AttnSpec

open Idealize.ShloMosaic Idealize.ShloMosaic.ValueIdx Cert.LibNatReadRanks

/-- The shape of the program's arguments and result. -/
abbrev A4 : Shape := ⟨4, ![4, 16, 2048, 128]⟩

/-- Attention with batch and head merged, then split again. -/
def attn4 (h : A4.ShapeCasts A3) (h' : A3.ShapeCasts A4) (x0 x1 x2 : A4.Idx → EReal) : A4.Idx → EReal :=
  shapeCast A4 (attn (shapeCast A3 x0 h) (shapeCast A3 x1 h) (shapeCast A3 x2 h)) h'

/-- Entry (16 b + h, r, e) of the merged array is entry (b, h, r, e) of the original. -/
theorem rdA_cast (h : A4.ShapeCasts A3) (x : A4.Idx → EReal) (b : Fin 4) (hd : Fin 16) (r : Fin 2048) (e : Fin 128) :
    rdA (shapeCast A3 x h) (b.val * 16 + hd.val) r.val e.val = x (ix4 b hd r e) := by
  unfold rdA rd3
  refine shapeCast_apply x h _ (ix4 b hd r e) ?_
  rw [Shape.rowMajor_val_four, Shape.rowMajor_val_three]
  have h0 := b.isLt; have h1 := hd.isLt; have h2 := r.isLt; have h3 := e.isLt
  show ((b.val * 16 + hd.val) * 2048 + r.val) * 128 + e.val
    = ((b.val * 16 + hd.val) % 64 * 2048 + r.val % 2048) * 128 + e.val % 128
  omega

/-- The result at (b, h, r, d). -/
theorem attn4_apply (h : A4.ShapeCasts A3) (h' : A3.ShapeCasts A4) (x0 x1 x2 : A4.Idx → EReal)
    (b : Fin 4) (hd : Fin 16) (r : Fin 2048) (d : Fin 128) :
    attn4 h h' x0 x1 x2 (ix4 b hd r d)
      = ∑ j : Fin 2048, (if j.val ≤ r.val then ∑ e : Fin 128, x0 (ix4 b hd r e) * x1 (ix4 b hd j e) else 0) * x2 (ix4 b hd j d) := by
  unfold attn4
  have hb := b.isLt; have hh := hd.isLt
  rw [shapeCast_apply _ h' (ix4 b hd r d) (ix3 (⟨b.val * 16 + hd.val, by omega⟩ : Fin 64) r d) (by
    rw [Shape.rowMajor_val_three, Shape.rowMajor_val_four]; rfl)]
  unfold attn
  rw [Finset.sum_range]
  refine Finset.sum_congr rfl fun j _ => ?_
  show term _ _ _ (b.val * 16 + hd.val) r.val j.val d.val = _
  unfold term score
  simp only [rdA_cast]

/-- The reference's mask bit. -/
theorem tril_iff (r k : ℕ) (hr : r < 2048) (hk : k < 2048) :
    IntOp.cmpi .sge (IntOp.addi (BitVec.ofNat 32 r) 0#32) (BitVec.ofNat 32 k) = 1#1 ↔ k ≤ r := by
  have e1 : IntOp.addi (BitVec.ofNat 32 r) 0#32 = BitVec.ofNat 32 r := by
    show BitVec.ofNat 32 r + 0#32 = _
    exact BitVec.add_zero _
  rw [e1]
  show BitVec.ofBool (BitVec.sle (BitVec.ofNat 32 k) (BitVec.ofNat 32 r)) = 1#1 ↔ _
  rw [WordArith.ofBool_eq_one_iff, BitVec.sle, decide_eq_true_eq,
    WordArith.toInt_ofNat_small _ (by omega), WordArith.toInt_ofNat_small _ (by omega)]
  omega

end Cert.AttnSpec

end
-- ==== Proof.IdealFinal.lean ====
/-
  The idealized kernel's result array, whole.

  The output window's block (bh, qi) is written back once, after the point with ki = 3, when the accumulator holds the
  full attention sum for query rows 512 qi .. 512 qi + 511 of slab bh; the 64 x 4 blocks tile the [64, 2048, 128] array,
  so the array ends at `attn Q K W` of the three arrays the region found. Those are the arguments with batch and head
  merged by the host reshapes before the region, and the program's result is that array split back by the reshape after
  it: `attn4` of the arguments.
-/
import proofs.«108944_j52836687676079_1_alg».proof.Proof.IdealAcc
import proofs.«108944_j52836687676079_1_alg».proof.Proof.AttnSpec4
import Idealize.ShloMosaic.Lib.StableHlo.Run

set_option maxRecDepth 16384

noncomputable section

open scoped BigOperators

namespace Cert.KernelIdeal.Attn

open Cert.KernelIdeal Cert.KernelIdeal.Gen Cert.KernelIdeal.Hand Cert.KernelIdeal.Payload Cert.AttnSpec Cert.LibNatReadRanks
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The output block after point n, at an entry (u, p, d): the accumulator's prefix sum at (p, d). -/
theorem out_block_apply (c : Dev nD) (n : ℕ) (hn : n < cfg0.N) (y : S1x512x128.Idx) :
    k0_pay3 (F := Ideal) (accAt m c n hn) y
      = ∑ k ∈ Finset.range ((n % 4 + 1) * 512), term (Qa m c) (Ka m c) (Wa m c) (n / 16) (n / 4 % 4 * 512 + (y 1).val) k (y 2).val := by
  rw [pay3_apply]
  exact acc_inv_idx m c n hn _

/-- What a point with ki = 3 writes back is its block of the attention array. -/
theorem flushed_eq (c : Dev nD) (t : Fin cfg0.N) (hf : (cfg0.win 3).flush t = true) :
    (dats m 0 c).flushed 3 t = ((cfg0.win 3).blk t).view.read (Elt Ideal) (attn (Qa m c) (Ka m c) (Wa m c)) := by
  show (cfg0.win 3).cut (grid0.coords t) ((dats m 0 c).after 3 t) = _
  rw [after_3]
  have h3 : t.val % 4 = 3 := (flush0_3 t).mp hf
  obtain ⟨-, -, -, -, -, -, -, -, -, i0, i1, i2⟩ := index_facts t
  funext y
  show k0_pay3 (F := Ideal) (accAt m c t.val t.isLt) y = attn (Qa m c) (Ka m c) (Wa m c) (((cfg0.win 3).blk t).view.emb y)
  refine (out_block_apply m c t.val t.isLt y).trans ?_
  unfold attn
  have e0 : ((((cfg0.win 3).blk t).view.emb y) 0).val = t.val / 16 := by
    show win0_3.index t (0 : Fin 3) * 1 + 1 * (y 0).val = _
    have : (y 0).val < 1 := (y 0).isLt
    omega
  have e1 : ((((cfg0.win 3).blk t).view.emb y) 1).val = t.val / 4 % 4 * 512 + (y 1).val := by
    show win0_3.index t (1 : Fin 3) * 512 + 1 * (y 1).val = _; omega
  have e2 : ((((cfg0.win 3).blk t).view.emb y) 2).val = (y 2).val := by
    show win0_3.index t (2 : Fin 3) * 128 + 1 * (y 2).val = _; omega
  rw [e0, e1, e2, h3]

/-- An index of the array is in a point's output block iff each coordinate is in the block's range. -/
theorem mem_blk3 (t : Fin cfg0.N) (i : S64x2048x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v3).slice (win0_3.rect t)).set ↔ _
  rw [View.set_slice_whole, Rect.mem_set_unit]
  exact Iff.rfl

/-- Every index of the array is in the block some point writes back: slab i0, query tile i1 / 512, at ki = 3. -/
theorem cover3 (i : S64x2048x128.Idx) : ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 128 := (i 2).isLt
  have hN : cfg0.N = 1024 := N_0
  have hlt : ((i 0).val * 4 + (i 1).val / 512) * 4 + 3 < cfg0.N := by rw [hN]; omega
  refine ⟨⟨_, hlt⟩, (flush0_3 _).mpr (by show (((i 0).val * 4 + (i 1).val / 512) * 4 + 3) % 4 = 3; omega), ?_⟩
  rw [mem_blk3]
  obtain ⟨-, -, -, -, -, -, -, -, -, j0, j1, j2⟩ := index_facts ⟨_, hlt⟩
  have j0' : win0_3.index ⟨_, hlt⟩ (0 : Fin 3) = (((i 0).val * 4 + (i 1).val / 512) * 4 + 3) / 16 := j0
  have j1' : win0_3.index ⟨_, hlt⟩ (1 : Fin 3) = (((i 0).val * 4 + (i 1).val / 512) * 4 + 3) / 4 % 4 := j1
  intro a
  match a with
  | ⟨0, _⟩ =>
    show win0_3.index ⟨_, hlt⟩ (0 : Fin 3) * 1 ≤ (i 0).val ∧ (i 0).val < win0_3.index ⟨_, hlt⟩ (0 : Fin 3) * 1 + 1
    omega
  | ⟨1, _⟩ =>
    show win0_3.index ⟨_, hlt⟩ (1 : Fin 3) * 512 ≤ (i 1).val ∧ (i 1).val < win0_3.index ⟨_, hlt⟩ (1 : Fin 3) * 512 + 512
    omega
  | ⟨2, _⟩ =>
    show win0_3.index ⟨_, hlt⟩ (2 : Fin 3) * 128 ≤ (i 2).val ∧ (i 2).val < win0_3.index ⟨_, hlt⟩ (2 : Fin 3) * 128 + 128
    omega

/-- The output array after the region. -/
theorem final (c : Dev nD) : (dats m 0 c).arrAt 3 cfg0.N = attn (Qa m c) (Ka m c) (Wa m c) :=
  (dats m 0 c).arrAt_eq_of_cover 3 _ (fun t hf => flushed_eq m c t hf) cover3

/-- The arrays the region finds are the arguments with batch and head merged. -/
theorem Qa_eq (c : Dev nD) : Qa m c = shapeCast S64x2048x128 (m ((c : Thread nD τ).loc main_arg0)) shapeCasts_S4x16x2048x128_S64x2048x128 := by
  show StableHlo.after hostOps0 (fun b => m (c, b)) (Proc.devRef .tc main_v0) = _
  after_results
  rfl
theorem Ka_eq (c : Dev nD) : Ka m c = shapeCast S64x2048x128 (m ((c : Thread nD τ).loc main_arg1)) shapeCasts_S4x16x2048x128_S64x2048x128 := by
  show StableHlo.after hostOps0 (fun b => m (c, b)) (Proc.devRef .tc main_v1) = _
  after_results
  rfl
theorem Wa_eq (c : Dev nD) : Wa m c = shapeCast S64x2048x128 (m ((c : Thread nD τ).loc main_arg2)) shapeCasts_S4x16x2048x128_S64x2048x128 := by
  show StableHlo.after hostOps0 (fun b => m (c, b)) (Proc.devRef .tc main_v2) = _
  after_results
  rfl

/-- The program's result buffer after the host reshape that follows the region. -/
theorem tail_eq (c : Dev nD) : Pipeline.afterTail₀ cfgs (dats m) 0 (V0 m) [hostOps1] c main_v4
    = attn4 shapeCasts_S4x16x2048x128_S64x2048x128 shapeCasts_S64x2048x128_S4x16x2048x128
        (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = attn (Qa m c) (Ka m c) (Wa m c) :=
    (Pipeline.withArrays_arr spec0 launch0.win.arr_inj c _ _ 3).trans (final m c)
  show shapeCast S4x16x2048x128 (Pipeline.withArrays (cfgs 0).spec c (V0 m c) (fun w => (dats m 0 c).arrAt w (cfgs 0).N) (Proc.devRef .tc main_v3))
    shapeCasts_S64x2048x128_S4x16x2048x128 = _
  rw [hw, Qa_eq, Ka_eq, Wa_eq]
  rfl

/-- THE IDEALIZED KERNEL'S RUN: every weakly fair execution terminates without fault, the result buffer at `attn4` of the
    arguments, the arguments unchanged. -/
theorem kernel_run : θ_run defs (onTc (τ := τ) (main (F := Ideal))) ⟨m, fun _ => 0, ρ⟩ (fun r => ∀ c : Dev nD,
      r.2.mem ((c.tc : Thread nD τ).loc main_v4)
        = attn4 shapeCasts_S4x16x2048x128_S64x2048x128 shapeCasts_S64x2048x128_S4x16x2048x128
          (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Attn

end
-- ==== Proof.LibPowOne.lean ====
/-
  The power with exponent one, on the extended reals.

  The single-precision word 0x3F800000 is the real number 1, and raising any extended real to the power 1 gives it
  back: −∞ to any power is −∞ by convention, +∞ to a positive power is +∞, and a real base x to the real power 1 is x
  whatever the sign of x.  So a program that writes q ** 1.0 computes q, with no condition on q.
-/
import Idealize.ShloMosaic.PureOps.Ideal

noncomputable section

namespace Cert.LibPowOne

open Idealize.ShloMosaic

/-- The word 0x3F800000 has sign 0, biased exponent 127 and mantissa 0: the real number 1. -/
theorem ofBits_one_f32 : Ideal.ofBits .f32 0x3F800000#32 = 1 := by
  simp [Ideal.ofBits, Ideal.ieee, -EReal.coe_mul]; norm_num

/-- Raising to the power 1 changes nothing, on every extended real: −∞ stays −∞, +∞ to a positive power is +∞, and
    on a real base it is the real power x¹ = x (whatever the sign of x). -/
theorem pow_one (q : EReal) : Ideal.pow q 1 = q := by
  rw [← EReal.coe_one]
  induction q using EReal.rec with
  | bot => rfl
  | top =>
    rw [Ideal.pow_top, if_pos (by exact_mod_cast one_pos)]
  | coe x =>
    rw [Ideal.pow_coe_coe]
    show ((x ^ (1 : ℝ) : ℝ) : EReal) = x
    rw [Real.rpow_one]

/-- The same with the exponent spelt as the single-precision word of 1.0. -/
theorem pow_ofBits_one_f32 (q : EReal) : Ideal.pow q (Ideal.ofBits .f32 0x3F800000#32) = q := by
  rw [ofBits_one_f32]
  exact pow_one q

end Cert.LibPowOne

end
-- ==== Proof.RefAttn.lean ====
/-
  The reference program computes `attn4` of its arguments.

  Read one operation at a time, the reference's result at (b, h, r, d) is the sum over key positions k of
  (score(b,h,r,k) · mask(r,k)) · v(b,h,k,d), the mask the lower-triangular array of ones: the word 0x3F800000 (the real
  number 1) where r + 0 ≥ k as signed 32-bit words, the zero word elsewhere. On the extended reals s · 1 = s and
  s · 0 = 0 for every s, infinite ones included, so the masked score is `if k ≤ r then score else 0`, the summand
  of `attn4` read at the same index.
-/
import proofs.«108944_j52836687676079_1_alg».proof.Proof.Gen.ReferenceIdeal.Read
import proofs.«108944_j52836687676079_1_alg».proof.Proof.AttnSpec4
import proofs.«108944_j52836687676079_1_alg».proof.Proof.LibPowOne

set_option maxRecDepth 16384

noncomputable section

open scoped BigOperators

namespace Cert.ReferenceIdeal.RefAttn

open Cert.ReferenceIdeal Cert.ReferenceIdeal.Gen Cert.ReferenceIdeal.Read Cert.AttnSpec
open Idealize.ShloMosaic Idealize.ShloMosaic.ValueIdx

/-- The mask at (r, k), on the extended reals. -/
theorem mask_apply (b : Fin 4) (hd : Fin 16) (r k : Fin 2048) :
    val_main_v4 (F := Ideal) (ix4 b hd r k) = if k.val ≤ r.val then 1 else 0 := by
  rw [val_main_v4_apply, val_main_v3_apply, val_main_v1_apply, val_main_call0_v4_apply, val_main_call0_v2_apply,
    val_main_call0_v0_apply, val_main_call0_v1_apply, val_main_call0_c_apply, val_main_call0_v3_apply, val_main_v0_apply,
    val_main_cst_apply, val_main_call0_v5_apply, val_main_call0_cst_apply]
  have hm := tril_iff r.val k.val r.isLt k.isLt
  show Scalar.select (IntOp.cmpi .sge (IntOp.addi (BitVec.ofNat 32 r.val) 0#32) (BitVec.ofNat 32 k.val))
    (Ideal.ofBits .f32 0x3F800000#32) (Ideal.ofBits .f32 0x00000000#32) = _
  by_cases h : k.val ≤ r.val
  · rw [if_pos h, hm.mpr h, select_one]; exact Cert.LibPowOne.ofBits_one_f32
  · rw [if_neg h, eq_zero_of_ne_one (mt hm.mp h), select_zero]; exact Ideal.ofBits_zero_f32

/-- The scores at (b, h, r, k). -/
theorem score_apply (x0 x1 : S4x16x2048x128.Idx → EReal) (b : Fin 4) (hd : Fin 16) (r k : Fin 2048) :
    val_main_v2 (F := Ideal) x0 x1 (ix4 b hd r k) = ∑ e : Fin 128, x0 (ix4 b hd r e) * x1 (ix4 b hd k e) := by
  rw [val_main_v2_apply]
  refine Finset.sum_congr rfl fun e _ => ?_
  have el : lidx_main_v2 (ix4 b hd r k) e = ix4 b hd r e := funext fun a => Fin.ext (by
    match a with
    | ⟨0, _⟩ => rfl
    | ⟨1, _⟩ => rfl
    | ⟨2, _⟩ => rfl
    | ⟨3, _⟩ => rfl)
  have er : ridx_main_v2 (ix4 b hd r k) e = ix4 b hd k e := funext fun a => Fin.ext (by
    match a with
    | ⟨0, _⟩ => rfl
    | ⟨1, _⟩ => rfl
    | ⟨2, _⟩ => rfl
    | ⟨3, _⟩ => rfl)
  rw [el, er]

/-- THE REFERENCE IS THE SPECIFICATION: its last stage is `attn4` of the arguments. -/
theorem ref_eq (h : A4.ShapeCasts A3) (h' : A3.ShapeCasts A4) (x0 x1 x2 : S4x16x2048x128.Idx → EReal) :
    val_main_v6 (F := Ideal) x0 x1 x2 = attn4 h h' x0 x1 x2 := by
  funext i
  obtain ⟨b, hd, r, d, rfl⟩ : ∃ (b : Fin 4) (hd : Fin 16) (r : Fin 2048) (d : Fin 128), i = ix4 b hd r d :=
    ⟨i 0, i 1, i 2, i 3, eq_ix4 i⟩
  rw [attn4_apply, val_main_v6_apply]
  refine Finset.sum_congr rfl fun k _ => ?_
  have el : lidx_main_v6 (ix4 b hd r d) k = ix4 b hd r k := funext fun a => Fin.ext (by
    match a with
    | ⟨0, _⟩ => rfl
    | ⟨1, _⟩ => rfl
    | ⟨2, _⟩ => rfl
    | ⟨3, _⟩ => rfl)
  have er : ridx_main_v6 (ix4 b hd r d) k = ix4 b hd k d := funext fun a => Fin.ext (by
    match a with
    | ⟨0, _⟩ => rfl
    | ⟨1, _⟩ => rfl
    | ⟨2, _⟩ => rfl
    | ⟨3, _⟩ => rfl)
  rw [el, er, val_main_v5_apply, score_apply, mask_apply]
  show (∑ e : Fin 128, x0 (ix4 b hd r e) * x1 (ix4 b hd k e)) * (if k.val ≤ r.val then (1 : EReal) else 0) * x2 (ix4 b hd k d) = _
  by_cases hk : k.val ≤ r.val
  · rw [if_pos hk, if_pos hk, mul_one]
  · rw [if_neg hk, if_neg hk, mul_zero]

end Cert.ReferenceIdeal.RefAttn

end
-- ==== Proof.lean ====
/-
  Causal linear attention without softmax, a tiled kernel against its plain formulation, on the extended reals.

  Both programs compute, for q, k, v of shape [4, 16, 2048, 128] and every batch b, head h, position r and feature d,

      out(b,h,r,d)  =  Σ_{j < 2048}  [j ≤ r] · (Σ_{e < 128} q(b,h,r,e) · k(b,h,j,e)) · v(b,h,j,d).

  The reference multiplies the full score matrix by a lower-triangular array of ones and contracts with v. The kernel
  merges batch and head, walks a grid (batch·head, query tile, key tile) of 512-row tiles with the key tile innermost,
  keeps a 512 x 128 accumulator across the four key tiles of a query tile — zeroed at the first, increased by the
  masked tile product where the key tile is not to the right of the query tile, copied out at the last — and masks
  with a select against zero instead of a product with ones. The two agree because a changed float format is the
  identity on the extended reals, s · 1 = s and s · 0 = 0 and 0 · w = 0 hold for every extended real (so the skipped
  tiles and the masked entries contribute exactly the zeros the reference adds), and the rest is a regrouping of one
  finite sum; no step needs finite inputs.

  The modules: Proof/IdealStep and Proof/IdealFrame (one grid point of the kernel as pure functions, and the frame: the
  program runs to the end, faults nowhere and leaves its arguments alone), Proof/BitsStep and Proof/BitsFrame (the
  same for the word-level program, whose text is the same), Proof/AttnSpec and Proof/AttnSpec4 (the formula above and
  its tile arithmetic), Proof/IdealPayload (the body's stored values at an index), Proof/IdealAcc (the accumulator after
  every point), Proof/IdealFinal (the kernel's result array), Proof/RefAttn (the reference's), and the claims below.
-/
import proofs.«108944_j52836687676079_1_alg».proof.Defs
import proofs.«108944_j52836687676079_1_alg».proof.Proof.Gen.Kernel
import proofs.«108944_j52836687676079_1_alg».proof.Proof.Gen.KernelIdeal
import proofs.«108944_j52836687676079_1_alg».proof.Proof.Gen.ReferenceIdeal
import proofs.«108944_j52836687676079_1_alg».proof.Proof.Gen.Pre_finite_inputs
import proofs.«108944_j52836687676079_1_alg».proof.Proof.Gen.ReferenceIdeal.Run
import proofs.«108944_j52836687676079_1_alg».proof.Proof.Gen.ReferenceIdeal.Read
import proofs.«108944_j52836687676079_1_alg».proof.Proof.BitsFrame
import proofs.«108944_j52836687676079_1_alg».proof.Proof.IdealFrame
import proofs.«108944_j52836687676079_1_alg».proof.Proof.IdealFinal
import proofs.«108944_j52836687676079_1_alg».proof.Proof.RefAttn
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories agreeing on q, k and v both programs end with the attention formula of those arguments in their
    result buffers. -/
theorem algebraic : Cert.algebraic_KernelIdeal_ReferenceIdeal := by
  intro m ρ m' ρ' _ hagree
  refine ⟨_, Cert.KernelIdeal.Attn.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefAttn.ref_eq _ _, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
